-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S5x1024 : Shape := ⟨2, ![5, 1024]⟩
abbrev S5x3x2 : Shape := ⟨3, ![5, 3, 2]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S5x1024 : S_.BroadcastsInDim S5x1024 (![] : Fin 0 → Fin S5x1024.rank)
  reducesTo_S5x1024_S_d0_1 : S5x1024.ReducesTo [0, 1] S_
  bcast_S_S5x3x2 : S_.BroadcastsInDim S5x3x2 (![] : Fin 0 → Fin S5x3x2.rank)
  reducesTo_S5x3x2_S_d0_1_2 : S5x3x2.ReducesTo [0, 1, 2] S_

variable [Facts]

def fn {F : FTy → Type} [FloatOps F] (main_arg0 : FVec F S32768x1024 .f32) (main_arg1 : FVec F S5x1024 .f32) (main_arg2 : FVec F S5x3x2 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S5x1024 .f32 := Host.absf main_arg1
  let main_cst_0 : FVec F S_ .f32 := constant S_ .f32 0x7F800000#32
  let main_v5 : FVec F S5x1024 .f32 := broadcastInDim S5x1024 ![] bcast_S_S5x1024 main_cst_0
  let main_v6 : IVec S5x1024 1 := cmpf .olt main_v4 main_v5
  let main_c_1 : IVec S_ 1 := constantI S_ 1 1#1
  let main_v7 : IVec S_ 1 := (fun x v => Host.reduce IntOp.andi x v reducesTo_S5x1024_S_d0_1 h_S_) main_v6 main_c_1
  let main_v8 : IVec S_ 1 := andi main_v3 main_v7
  let main_v9 : FVec F S5x3x2 .f32 := Host.absf main_arg2
  let main_cst_2 : FVec F S_ .f32 := constant S_ .f32 0x7F800000#32
  let main_v10 : FVec F S5x3x2 .f32 := broadcastInDim S5x3x2 ![] bcast_S_S5x3x2 main_cst_2
  let main_v11 : IVec S5x3x2 1 := cmpf .olt main_v9 main_v10
  let main_c_3 : IVec S_ 1 := constantI S_ 1 1#1
  let main_v12 : IVec S_ 1 := (fun x v => Host.reduce IntOp.andi x v reducesTo_S5x3x2_S_d0_1_2 h_S_) main_v11 main_c_3
  let main_v13 : IVec S_ 1 := andi main_v8 main_v12
  main_v13
-- ==== Kernel.lean ====
abbrev S32768x1024 : Shape := ⟨2, ![32768, 1024]⟩
abbrev S5x1024 : Shape := ⟨2, ![5, 1024]⟩
abbrev S5x3x2 : Shape := ⟨3, ![5, 3, 2]⟩
abbrev S_ : Shape := ⟨0, ![]⟩
abbrev S5 : Shape := ⟨1, ![5]⟩
abbrev S1x5 : Shape := ⟨2, ![1, 5]⟩
abbrev S1024x5 : Shape := ⟨2, ![1024, 5]⟩
abbrev S2x3x5 : Shape := ⟨3, ![2, 3, 5]⟩
abbrev S1x3x5 : Shape := ⟨3, ![1, 3, 5]⟩
abbrev S3x5 : Shape := ⟨2, ![3, 5]⟩
abbrev S5x3 : Shape := ⟨2, ![5, 3]⟩
abbrev S3 : Shape := ⟨1, ![3]⟩
abbrev S1x3 : Shape := ⟨2, ![1, 3]⟩
abbrev S32768x3 : Shape := ⟨2, ![32768, 3]⟩
abbrev S2048x1024 : Shape := ⟨2, ![2048, 1024]⟩
abbrev S2048x3 : Shape := ⟨2, ![2048, 3]⟩
abbrev S2048 : Shape := ⟨1, ![2048]⟩
abbrev S2048x1 : Shape := ⟨2, ![2048, 1]⟩
abbrev S2048x5 : Shape := ⟨2, ![2048, 5]⟩

abbrev nBuf : Space → Nat
  | .hbm => 40
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S5x1024, .f32⟩
  | .hbm, ⟨2, _⟩ => ⟨S5x3x2, .f32⟩
  | .hbm, ⟨3, _⟩ => ⟨S5x1024, .f32⟩
  | .hbm, ⟨4, _⟩ => ⟨S_, .f32⟩
  | .hbm, ⟨5, _⟩ => ⟨S5, .f32⟩
  | .hbm, ⟨6, _⟩ => ⟨S1x5, .f32⟩
  | .hbm, ⟨7, _⟩ => ⟨S1024x5, .f32⟩
  | .hbm, ⟨8, _⟩ => ⟨S1024x5, .bf16⟩
  | .hbm, ⟨9, _⟩ => ⟨S2x3x5, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x3x5, .f32⟩
  | .hbm, ⟨14, _⟩ => ⟨S2x3x5, .f32⟩
  | .hbm, ⟨15, _⟩ => ⟨S_, .f32⟩
  | .hbm, ⟨16, _⟩ => ⟨S2x3x5, .f32⟩
  | .hbm, ⟨17, _⟩ => ⟨S2x3x5, .f32⟩
  | .hbm, ⟨18, _⟩ => ⟨S1x3x5, .f32⟩
  | .hbm, ⟨19, _⟩ => ⟨S3x5, .f32⟩
  | .hbm, ⟨20, _⟩ => ⟨S1x3x5, .f32⟩
  | .hbm, ⟨21, _⟩ => ⟨S3x5, .f32⟩
  | .hbm, ⟨22, _⟩ => ⟨S_, .f32⟩
  | .hbm, ⟨23, _⟩ => ⟨S3x5, .f32⟩
  | .hbm, ⟨24, _⟩ => ⟨S3x5, .f32⟩
  | .hbm, ⟨25, _⟩ => ⟨S3x5, .f32⟩
  | .hbm, ⟨26, _⟩ => ⟨S3x5, .f32⟩
  | .hbm, ⟨27, _⟩ => ⟨S5x3, .f32⟩
  | .hbm, ⟨28, _⟩ => ⟨S_, .f32⟩
  | .hbm, ⟨29, _⟩ => ⟨S3, .f32⟩
  | .hbm, ⟨30, _⟩ => ⟨S3x5, .f32⟩
  | .hbm, ⟨31, _⟩ => ⟨S_, .f32⟩
  | .hbm, ⟨32, _⟩ => ⟨S3, .f32⟩
  | .hbm, ⟨33, _⟩ => ⟨S1x3, .f32⟩
  | .hbm, ⟨34, _⟩ => ⟨S5x3, .f32⟩
  | .hbm, ⟨35, _⟩ => ⟨S5x3, .f32⟩
  | .hbm, ⟨36, _⟩ => ⟨S5x3, .bf16⟩
  | .hbm, ⟨37, _⟩ => ⟨S3, .f32⟩
  | .hbm, ⟨38, _⟩ => ⟨S1x3, .f32⟩
  | .hbm, ⟨39, _⟩ => ⟨S32768x3, .f32⟩
  | .local _ .vmem, ⟨0, _⟩ => ⟨S2048x1024, .f32⟩
  | .local _ .vmem, ⟨1, _⟩ => ⟨S2048x1024, .f32⟩
  | .local _ .vmem, ⟨2, _⟩ => ⟨S1024x5, .bf16⟩
  | .local _ .vmem, ⟨3, _⟩ => ⟨S1x5, .f32⟩
  | .local _ .vmem, ⟨4, _⟩ => ⟨S5x3, .bf16⟩
  | .local _ .vmem, ⟨5, _⟩ => ⟨S1x3, .f32⟩
  | .local _ .vmem, ⟨6, _⟩ => ⟨S2048x3, .f32⟩
  | .local _ .vmem, ⟨7, _⟩ => ⟨S2048x3, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S5x1024_S5_d1 : S5x1024.ReducesTo [1] S5
  h_S_ : 0 < S_.numel
  shapeCasts_S5_S1x5 : S5.ShapeCasts S1x5
  transposes_S5x1024_S1024x5_1_0 : S5x1024.Transposes [1, 0] S1024x5
  bitsLt_bf16_f32 : FTy.bits .bf16 < FTy.bits .f32
  transposes_S5x3x2_S2x3x5_2_1_0 : S5x3x2.Transposes [2, 1, 0] S2x3x5
  bcast_S_S2x3x5 : S_.BroadcastsInDim S2x3x5 (![] : Fin 0 → Fin S2x3x5.rank)
  slices_S2x3x5_S1x3x5_0_0_0 : S2x3x5.Slices ![0, 0, 0] S1x3x5
  shapeCasts_S1x3x5_S3x5 : S1x3x5.ShapeCasts S3x5
  slices_S2x3x5_S1x3x5_1_0_0 : S2x3x5.Slices ![1, 0, 0] S1x3x5
  bcast_S_S3x5 : S_.BroadcastsInDim S3x5 (![] : Fin 0 → Fin S3x5.rank)
  transposes_S3x5_S5x3_1_0 : S3x5.Transposes [1, 0] S5x3
  reducesTo_S3x5_S3_d1 : S3x5.ReducesTo [1] S3
  bcast_S3_S1x3_1 : S3.BroadcastsInDim S1x3 (![1] : Fin 1 → Fin S1x3.rank)
  bcast_S1x3_S5x3_0_1 : S1x3.BroadcastsInDim S5x3 (![0, 1] : Fin 2 → Fin S5x3.rank)
  shapeCasts_S3_S1x3 : S3.ShapeCasts S1x3
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S2048x1_S2048x5 : S2048x1.Broadcasts S2048x5
  broadcasts_S1x5_S2048x5 : S1x5.Broadcasts S2048x5
  inb_S5x3_S5x3_0_0 : ∀ a, (![0, 0] : Fin 2 → Nat) a + S5x3.size a ≤ S5x3.size a
  h_S5x3 : 0 < S5x3.numel
  shapeCasts_S5x3_S5x3 : S5x3.ShapeCasts S5x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  dot_S2048x1024_S1024x5_S2048x5_1_0_0_1_n_n_wf : DotDims.WF S2048x1024 S1024x5 S2048x5 [1] [0] [0] [1] [] []
  dot_S2048x5_S5x3_S2048x3_1_0_0_1_n_n_wf : DotDims.WF S2048x5 S5x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x5.size a ≤ S1024x5.size a
  hwx0_1 : ∀ i : grid0.Coords, EltTy.bits .bf16 = 32 ∨ (Rect.block (s := S1024x5) S1024x5.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x3.size a ≤ S5x3.size a
  hwx0_3 : ∀ i : grid0.Coords, EltTy.bits .bf16 = 32 ∨ (Rect.block (s := S5x3) S5x3.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x3.size a ≤ S32768x3.size a
  hwx0_5 : ∀ i : grid0.Coords, EltTy.bits .f32 = 32 ∨ (Rect.block (s := S32768x3) S2048x3.size (cc0_transform_5 i) (hinb0_5 i)).WholeWords (EltTy.packing .f32)

variable [Facts₀]

def dot_S2048x1024_S1024x5_S2048x5_1_0_0_1_n_n : DotDims S2048x1024 S1024x5 S2048x5 where
  lhsContracting := [1]
  rhsContracting := [0]
  lhsNonContracting := [0]
  rhsNonContracting := [1]
  lhsBatch := []
  rhsBatch := []
  wf := dot_S2048x1024_S1024x5_S2048x5_1_0_0_1_n_n_wf
def dot_S2048x5_S5x3_S2048x3_1_0_0_1_n_n : DotDims S2048x5 S5x3 S2048x3 where
  lhsContracting := [1]
  rhsContracting := [0]
  lhsNonContracting := [0]
  rhsNonContracting := [1]
  lhsBatch := []
  rhsBatch := []
  wf := dot_S2048x5_S5x3_S2048x3_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2048x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S5x1024 : Shape := ⟨2, ![5, 1024]⟩
abbrev S5x3x2 : Shape := ⟨3, ![5, 3, 2]⟩
abbrev S_ : Shape := ⟨0, ![]⟩
abbrev S32768 : Shape := ⟨1, ![32768]⟩
abbrev S32768x1 : Shape := ⟨2, ![32768, 1]⟩
abbrev S5 : Shape := ⟨1, ![5]⟩
abbrev S1x5 : Shape := ⟨2, ![1, 5]⟩
abbrev S32768x5 : Shape := ⟨2, ![32768, 5]⟩
abbrev S1024x5 : Shape := ⟨2, ![1024, 5]⟩
abbrev S2x3x5 : Shape := ⟨3, ![2, 3, 5]⟩
abbrev S1x3x5 : Shape := ⟨3, ![1, 3, 5]⟩
abbrev S3x5 : Shape := ⟨2, ![3, 5]⟩
abbrev S5x3 : Shape := ⟨2, ![5, 3]⟩
abbrev S32768x3 : Shape := ⟨2, ![32768, 3]⟩
abbrev S3 : Shape := ⟨1, ![3]⟩
abbrev S1x3 : Shape := ⟨2, ![1, 3]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S5x1024, .f32⟩
  | .hbm, ⟨2, _⟩ => ⟨S5x3x2, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S5x1024, .f32⟩
  | .hbm, ⟨8, _⟩ => ⟨S_, .f32⟩
  | .hbm, ⟨9, _⟩ => ⟨S5, .f32⟩
  | .hbm, ⟨10, _⟩ => ⟨S1x5, .f32⟩
  | .hbm, ⟨11, _⟩ => ⟨S32768x5, .f32⟩
  | .hbm, ⟨12, _⟩ => ⟨S32768x5, .f32⟩
  | .hbm, ⟨13, _⟩ => ⟨S32768x5, .f32⟩
  | .hbm, ⟨14, _⟩ => ⟨S1024x5, .f32⟩
  | .hbm, ⟨15, _⟩ => ⟨S32768x5, .f32⟩
  | .hbm, ⟨16, _⟩ => ⟨S_, .f32⟩
  | .hbm, ⟨17, _⟩ => ⟨S32768x5, .f32⟩
  | .hbm, ⟨18, _⟩ => ⟨S32768x5, .f32⟩
  | .hbm, ⟨19, _⟩ => ⟨S32768x5, .f32⟩
  | .hbm, ⟨20, _⟩ => ⟨S_, .f32⟩
  | .hbm, ⟨21, _⟩ => ⟨S32768x5, .f32⟩
  | .hbm, ⟨22, _⟩ => ⟨S32768x5, .f32⟩
  | .hbm, ⟨23, _⟩ => ⟨S32768x5, .f32⟩
  | .hbm, ⟨24, _⟩ => ⟨S_, .f32⟩
  | .hbm, ⟨25, _⟩ => ⟨S32768x5, .f32⟩
  | .hbm, ⟨26, _⟩ => ⟨S32768x5, .f32⟩
  | .hbm, ⟨27, _⟩ => ⟨S32768x5, .f32⟩
  | .hbm, ⟨28, _⟩ => ⟨S2x3x5, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x3x5, .f32⟩
  | .hbm, ⟨33, _⟩ => ⟨S2x3x5, .f32⟩
  | .hbm, ⟨34, _⟩ => ⟨S_, .f32⟩
  | .hbm, ⟨35, _⟩ => ⟨S2x3x5, .f32⟩
  | .hbm, ⟨36, _⟩ => ⟨S2x3x5, .f32⟩
  | .hbm, ⟨37, _⟩ => ⟨S1x3x5, .f32⟩
  | .hbm, ⟨38, _⟩ => ⟨S3x5, .f32⟩
  | .hbm, ⟨39, _⟩ => ⟨S1x3x5, .f32⟩
  | .hbm, ⟨40, _⟩ => ⟨S3x5, .f32⟩
  | .hbm, ⟨41, _⟩ => ⟨S_, .f32⟩
  | .hbm, ⟨42, _⟩ => ⟨S3x5, .f32⟩
  | .hbm, ⟨43, _⟩ => ⟨S3x5, .f32⟩
  | .hbm, ⟨44, _⟩ => ⟨S3x5, .f32⟩
  | .hbm, ⟨45, _⟩ => ⟨S3x5, .f32⟩
  | .hbm, ⟨46, _⟩ => ⟨S5x3, .f32⟩
  | .hbm, ⟨47, _⟩ => ⟨S32768x3, .f32⟩
  | .hbm, ⟨48, _⟩ => ⟨S_, .f32⟩
  | .hbm, ⟨49, _⟩ => ⟨S3, .f32⟩
  | .hbm, ⟨50, _⟩ => ⟨S1x3, .f32⟩
  | .hbm, ⟨51, _⟩ => ⟨S32768x3, .f32⟩
  | .hbm, ⟨52, _⟩ => ⟨S32768x3, .f32⟩
  | .hbm, ⟨53, _⟩ => ⟨S3x5, .f32⟩
  | .hbm, ⟨54, _⟩ => ⟨S_, .f32⟩
  | .hbm, ⟨55, _⟩ => ⟨S3, .f32⟩
  | .hbm, ⟨56, _⟩ => ⟨S1x3, .f32⟩
  | .hbm, ⟨57, _⟩ => ⟨S32768x3, .f32⟩
  | .hbm, ⟨58, _⟩ => ⟨S32768x3, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  reducesTo_S5x1024_S5_d1 : S5x1024.ReducesTo [1] S5
  bcast_S5_S1x5_1 : S5.BroadcastsInDim S1x5 (![1] : Fin 1 → Fin S1x5.rank)
  bcast_S32768x1_S32768x5_0_1 : S32768x1.BroadcastsInDim S32768x5 (![0, 1] : Fin 2 → Fin S32768x5.rank)
  bcast_S1x5_S32768x5_0_1 : S1x5.BroadcastsInDim S32768x5 (![0, 1] : Fin 2 → Fin S32768x5.rank)
  transposes_S5x1024_S1024x5_1_0 : S5x1024.Transposes [1, 0] S1024x5
  bcast_S_S32768x5 : S_.BroadcastsInDim S32768x5 (![] : Fin 0 → Fin S32768x5.rank)
  transposes_S5x3x2_S2x3x5_2_1_0 : S5x3x2.Transposes [2, 1, 0] S2x3x5
  bcast_S_S2x3x5 : S_.BroadcastsInDim S2x3x5 (![] : Fin 0 → Fin S2x3x5.rank)
  slices_S2x3x5_S1x3x5_0_0_0 : S2x3x5.Slices ![0, 0, 0] S1x3x5
  shapeCasts_S1x3x5_S3x5 : S1x3x5.ShapeCasts S3x5
  slices_S2x3x5_S1x3x5_1_0_0 : S2x3x5.Slices ![1, 0, 0] S1x3x5
  bcast_S_S3x5 : S_.BroadcastsInDim S3x5 (![] : Fin 0 → Fin S3x5.rank)
  transposes_S3x5_S5x3_1_0 : S3x5.Transposes [1, 0] S5x3
  reducesTo_S3x5_S3_d1 : S3x5.ReducesTo [1] S3
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  dot_S32768x1024_S1024x5_S32768x5_1_0_0_1_n_n_wf : DotDims.WF S32768x1024 S1024x5 S32768x5 [1] [0] [0] [1] [] []
  dot_S32768x5_S5x3_S32768x3_1_0_0_1_n_n_wf : DotDims.WF S32768x5 S5x3 S32768x3 [1] [0] [0] [1] [] []

variable [Facts₀]

def dot_S32768x1024_S1024x5_S32768x5_1_0_0_1_n_n : DotDims S32768x1024 S1024x5 S32768x5 where
  lhsContracting := [1]
  rhsContracting := [0]
  lhsNonContracting := [0]
  rhsNonContracting := [1]
  lhsBatch := []
  rhsBatch := []
  wf := dot_S32768x1024_S1024x5_S32768x5_1_0_0_1_n_n_wf
def dot_S32768x5_S5x3_S32768x3_1_0_0_1_n_n : DotDims S32768x5 S5x3 S32768x3 where
  lhsContracting := [1]
  rhsContracting := [0]
  lhsNonContracting := [0]
  rhsNonContracting := [1]
  lhsBatch := []
  rhsBatch := []
  wf := dot_S32768x5_S5x3_S32768x3_1_0_0_1_n_n_wf

class Facts : Prop extends Facts₀ where

variable [Facts]
-- ==== Proof.Host.lean ====
/-
  The tables the kernel's program prepares before its grid, as the reference's own stages.  The operations that build
  them — squares and row sums of the components, the transposition, the clipped reasonings, p − n, Σ n, Σ (p + n) —
  are, operation for operation, the ones the reference applies, so each table IS the reference's stage (named
  `val_main_vN` by the generated reading of the reference); only the last steps differ: the weights and the offset are
  DIVIDED by the class totals here, where the reference divides its final sum.  (Rounding a table to bf16 is the
  identity at the exact values.)
-/
import proofs.«105461_j34033320854004_2_alg».proof.Proof.Gen.KernelIdeal.Frame
import proofs.«105461_j34033320854004_2_alg».proof.Proof.Gen.ReferenceIdeal.Read
import Idealize.ShloMosaic.Lib.StableHlo.Run
import Idealize.ShloMosaic.Lib.Pipeline.Value
import Idealize.ShloMosaic.Lib.ValueIdx

noncomputable section

namespace Cert.Cbc.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The transposed components [1024, 5]. -/
theorem V_compT (c : Dev nD) :
    (V m c main_v4 : S1024x5.Idx → EReal) = Cert.ReferenceIdeal.Read.val_main_v9 (F := Ideal) (m ((c : Thread nD τ).loc main_arg1)) := by
  dsimp only [V]
  simp only [hostOps0, hostOps0_1, hostOps0_2, List.flatten_cons, List.flatten_nil, List.append_nil, List.cons_append, List.nil_append]
  after_results
  rfl

/-- The components' squared norms, as a row [1, 5]. -/
theorem V_compSq (c : Dev nD) :
    (V m c main_v2 : S1x5.Idx → EReal)
      = shapeCast S1x5 (Cert.ReferenceIdeal.Read.val_main_v4 (F := Ideal) (m ((c : Thread nD τ).loc main_arg1))) shapeCasts_S5_S1x5 := by
  dsimp only [V]
  simp only [hostOps0, hostOps0_1, hostOps0_2, List.flatten_cons, List.flatten_nil, List.append_nil, List.cons_append, List.nil_append]
  after_results
  rfl

/-- The divided weights [5, 3]: (p − n) transposed, over the class totals. -/
theorem V_weights (c : Dev nD) :
    (V m c main_v22 : S5x3.Idx → EReal)
      = Host.divf (F := Ideal) (φ := .f32) (s := S5x3) (Cert.ReferenceIdeal.Read.val_main_v30 (F := Ideal) (m ((c : Thread nD τ).loc main_arg2)))
          (broadcastInDim (α := Ideal .f32) S5x3 ![0, 1] bcast_S1x3_S5x3_0_1 (broadcastInDim (α := Ideal .f32) S1x3 ![1] bcast_S3_S1x3_1
            (Cert.ReferenceIdeal.Read.val_main_v37 (F := Ideal) (m ((c : Thread nD τ).loc main_arg2))))) := by
  dsimp only [V]
  simp only [hostOps0, hostOps0_1, hostOps0_2, List.flatten_cons, List.flatten_nil, List.append_nil, List.cons_append, List.nil_append]
  after_results_simp
  rfl

/-- The divided offset, as a row [1, 3]: Σ n over the class totals. -/
theorem V_offset (c : Dev nD) :
    (V m c main_v24 : S1x3.Idx → EReal)
      = shapeCast (α := Ideal .f32) S1x3 (Host.divf (F := Ideal) (φ := .f32) (s := S3) (Cert.ReferenceIdeal.Read.val_main_v32 (F := Ideal) (m ((c : Thread nD τ).loc main_arg2)))
          (Cert.ReferenceIdeal.Read.val_main_v37 (F := Ideal) (m ((c : Thread nD τ).loc main_arg2)))) shapeCasts_S3_S1x3 := by
  dsimp only [V]
  simp only [hostOps0, hostOps0_1, hostOps0_2, List.flatten_cons, List.flatten_nil, List.append_nil, List.cons_append, List.nil_append]
  after_results_simp
  rfl

/-! ## The tables at an entry -/

theorem compT_apply (c : Dev nD) (d : Fin 1024) (k : Fin 5) :
    (V m c main_v4 : S1024x5.Idx → EReal) (ix2 d k)
      = Cert.ReferenceIdeal.Read.val_main_v9 (F := Ideal) (m ((c : Thread nD τ).loc main_arg1)) (ix2 d k) :=
  congrFun (V_compT m c) _

theorem compSq_apply (c : Dev nD) (k : Fin 5) :
    (V m c main_v2 : S1x5.Idx → EReal) (ix2 (0 : Fin 1) k)
      = Cert.ReferenceIdeal.Read.val_main_v4 (F := Ideal) (m ((c : Thread nD τ).loc main_arg1)) (ix1 k) := by
  rw [V_compSq]
  exact shapeCast_apply _ shapeCasts_S5_S1x5 (ix2 (0 : Fin 1) k) (ix1 k) (by
    rw [Shape.rowMajor_val_one, Shape.rowMajor_val_two]; show k.val = 0 * 5 + k.val; omega)

theorem weights_apply (c : Dev nD) (k : Fin 5) (q : Fin 3) :
    (V m c main_v22 : S5x3.Idx → EReal) (ix2 k q)
      = Ideal.div (Cert.ReferenceIdeal.Read.val_main_v30 (F := Ideal) (m ((c : Thread nD τ).loc main_arg2)) (ix2 k q))
          (Cert.ReferenceIdeal.Read.val_main_v37 (F := Ideal) (m ((c : Thread nD τ).loc main_arg2)) (ix1 q)) := by
  rw [V_weights]
  refine congrArg (Ideal.div (Cert.ReferenceIdeal.Read.val_main_v30 (F := Ideal) (m ((c : Thread nD τ).loc main_arg2)) (ix2 k q))) ?_
  refine (broadcastInDim_apply ![0, 1] bcast_S1x3_S5x3_0_1 _ (ix2 k q) (ix2 (0 : Fin 1) q) (fun a => by
    match a with
    | ⟨0, _⟩ => show 0 = if (1 : Nat) = 1 then 0 else k.val; rw [if_pos rfl]
    | ⟨1, _⟩ => show q.val = if (3 : Nat) = 1 then 0 else q.val; rw [if_neg (by decide)])).trans ?_
  exact broadcastInDim_apply ![1] bcast_S3_S1x3_1 _ (ix2 (0 : Fin 1) q) (ix1 q) (fun a => by
    match a with
    | ⟨0, _⟩ => show q.val = if (3 : Nat) = 1 then 0 else q.val; rw [if_neg (by decide)])

theorem offset_apply (c : Dev nD) (q : Fin 3) :
    (V m c main_v24 : S1x3.Idx → EReal) (ix2 (0 : Fin 1) q)
      = Ideal.div (Cert.ReferenceIdeal.Read.val_main_v32 (F := Ideal) (m ((c : Thread nD τ).loc main_arg2)) (ix1 q))
          (Cert.ReferenceIdeal.Read.val_main_v37 (F := Ideal) (m ((c : Thread nD τ).loc main_arg2)) (ix1 q)) := by
  rw [V_offset]
  refine (shapeCast_apply _ shapeCasts_S3_S1x3 (ix2 (0 : Fin 1) q) (ix1 q) (by
    rw [Shape.rowMajor_val_one, Shape.rowMajor_val_two]; show q.val = 0 * 3 + q.val; omega)).trans ?_
  rfl

end Cert.Cbc.Host

end
-- ==== Proof.Body.lean ====
/-
  The kernel body's stored value, read entry by entry.  On a block of 2048 rows x (all 1024 features), with the
  transposed components cT [1024, 5], their squared norms c2 [1, 5], the divided weights wp [5, 3] and the divided
  offset bp [1, 3] as the other operands, the value stored at row p and class q is
      Σ_k exp(−½ · max(‖x_p‖² + c2_k − 2·Σ_d x_{p,d}·cT_{d,k}, 0)) · wp_{k,q}  +  bp_q :
  a lane sum kept as a column and broadcast, two matrix products into zero accumulators (plain sums at the exact
  values), roundings to bf16 that are the identity there, and pointwise operations.
-/
import proofs.«105461_j34033320854004_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Cbc.Body

open Cert.KernelIdeal Cert.KernelIdeal.Gen Idealize.ShloMosaic Idealize.ShloMosaic.ValueIdx

/-- The vector exponential is pointwise. -/
theorem exp_apply {s : Shape} {φ : FTy} (a : FVec Ideal s φ) (i : s.Idx) : exp a i = Ideal.exp (a i) := rfl

/-- The lane sum of a row: the sum over its 1024 entries. -/
theorem rowsum_apply (v1 : FVec Ideal S2048x1024 .f32) (hφ : FKind.Formats .f32)
    (hacc : (0x00000000#32 : BitVec 32) = 0x00000000#32) (p : Fin 2048) :
    multiReduction .add [1] S2048 v1 0x00000000#32 reduces_S2048x1024_S2048 hφ hacc (ix1 p)
      = ∑ d : Fin 1024, v1 (ix2 p d) :=
  (Ideal.multiReduction_add_single v1 0x00000000#32 reduces_S2048x1024_S2048 hφ hacc (ix1 p)).trans
    (Finset.sum_congr rfl fun d _ => congrArg v1 (funext fun a => Fin.ext (by
      match a with
      | ⟨0, _⟩ => rfl
      | ⟨1, _⟩ => rfl)))

/-- A vector of row values kept as a column and broadcast along the five components: the row's value. -/
theorem keepdims_apply (v2 : FVec Ideal S2048 .f32) (p : Fin 2048) (k : Fin 5) :
    broadcastTo S2048x5 (shapeCast S2048x1 v2 shapeCasts_S2048_S2048x1) broadcasts_S2048x1_S2048x5 (ix2 p k) = v2 (ix1 p) :=
  (broadcastTo_apply (shapeCast S2048x1 v2 shapeCasts_S2048_S2048x1) broadcasts_S2048x1_S2048x5 (ix2 p k) (ix2 p (0 : Fin 1))
    (fun a => by
      match a with
      | ⟨0, _⟩ => show p.val = if (2048 : Nat) = 1 then 0 else p.val; rw [if_neg (by decide)]
      | ⟨1, _⟩ => show 0 = if (1 : Nat) = 1 then 0 else k.val; rw [if_pos rfl])).trans
    (shapeCast_apply v2 shapeCasts_S2048_S2048x1 (ix2 p (0 : Fin 1)) (ix1 p) (by
      rw [Shape.rowMajor_val_one, Shape.rowMajor_val_two]; show p.val = p.val * 1 + 0; omega))

/-- A single row of five values broadcast down the 2048 rows. -/
theorem row5_apply (v8 : FVec Ideal S1x5 .f32) (p : Fin 2048) (k : Fin 5) :
    broadcastTo S2048x5 v8 broadcasts_S1x5_S2048x5 (ix2 p k) = v8 (ix2 (0 : Fin 1) k) :=
  broadcastTo_apply v8 broadcasts_S1x5_S2048x5 (ix2 p k) (ix2 (0 : Fin 1) k) (fun a => by
    match a with
    | ⟨0, _⟩ => show 0 = if (1 : Nat) = 1 then 0 else p.val; rw [if_pos rfl]
    | ⟨1, _⟩ => show k.val = if (5 : Nat) = 1 then 0 else k.val; rw [if_neg (by decide)])

/-- A single row of three values broadcast down the 2048 rows. -/
theorem row3_apply (v25 : FVec Ideal S1x3 .f32) (p : Fin 2048) (q : Fin 3) :
    broadcastTo S2048x3 v25 broadcasts_S1x3_S2048x3 (ix2 p q) = v25 (ix2 (0 : Fin 1) q) :=
  broadcastTo_apply v25 broadcasts_S1x3_S2048x3 (ix2 p q) (ix2 (0 : Fin 1) q) (fun a => by
    match a with
    | ⟨0, _⟩ => show 0 = if (1 : Nat) = 1 then 0 else p.val; rw [if_pos rfl]
    | ⟨1, _⟩ => show q.val = if (3 : Nat) = 1 then 0 else q.val; rw [if_neg (by decide)])

/-! The operand indices of the two matrix products, coordinate by coordinate. -/

theorem cross_l0 (i : S2048x5.Idx) (t : dot_S2048x1024_S1024x5_S2048x5_1_0_0_1_n_n.contr.Idx) :
    (dot_S2048x1024_S1024x5_S2048x5_1_0_0_1_n_n.lhsIdx i t 0).val = (i 0).val := by
  unfold DotDims.lhsIdx
  rw [dif_neg (show ¬(0 : Fin S2048x1024.rank) ∈ dot_S2048x1024_S1024x5_S2048x5_1_0_0_1_n_n.lhsBatch by decide), dif_pos (show (0 : Fin S2048x1024.rank) ∈ dot_S2048x1024_S1024x5_S2048x5_1_0_0_1_n_n.lhsNonContracting by decide)]
  rfl
theorem cross_l1 (i : S2048x5.Idx) (t : dot_S2048x1024_S1024x5_S2048x5_1_0_0_1_n_n.contr.Idx) :
    (dot_S2048x1024_S1024x5_S2048x5_1_0_0_1_n_n.lhsIdx i t 1).val = (t ⟨0, by decide⟩).val :=
  dot_S2048x1024_S1024x5_S2048x5_1_0_0_1_n_n.lhsIdx_val_of_single rfl i t
theorem cross_r0 (i : S2048x5.Idx) (t : dot_S2048x1024_S1024x5_S2048x5_1_0_0_1_n_n.contr.Idx) :
    (dot_S2048x1024_S1024x5_S2048x5_1_0_0_1_n_n.rhsIdx i t 0).val = (t ⟨0, by decide⟩).val :=
  dot_S2048x1024_S1024x5_S2048x5_1_0_0_1_n_n.rhsIdx_val_of_single rfl i t
theorem cross_r1 (i : S2048x5.Idx) (t : dot_S2048x1024_S1024x5_S2048x5_1_0_0_1_n_n.contr.Idx) :
    (dot_S2048x1024_S1024x5_S2048x5_1_0_0_1_n_n.rhsIdx i t 1).val = (i 1).val := by
  unfold DotDims.rhsIdx
  rw [dif_neg (show ¬(1 : Fin S1024x5.rank) ∈ dot_S2048x1024_S1024x5_S2048x5_1_0_0_1_n_n.rhsBatch by decide), dif_pos (show (1 : Fin S1024x5.rank) ∈ dot_S2048x1024_S1024x5_S2048x5_1_0_0_1_n_n.rhsNonContracting by decide)]
  rfl

theorem mix_l0 (i : S2048x3.Idx) (t : dot_S2048x5_S5x3_S2048x3_1_0_0_1_n_n.contr.Idx) :
    (dot_S2048x5_S5x3_S2048x3_1_0_0_1_n_n.lhsIdx i t 0).val = (i 0).val := by
  unfold DotDims.lhsIdx
  rw [dif_neg (show ¬(0 : Fin S2048x5.rank) ∈ dot_S2048x5_S5x3_S2048x3_1_0_0_1_n_n.lhsBatch by decide), dif_pos (show (0 : Fin S2048x5.rank) ∈ dot_S2048x5_S5x3_S2048x3_1_0_0_1_n_n.lhsNonContracting by decide)]
  rfl
theorem mix_l1 (i : S2048x3.Idx) (t : dot_S2048x5_S5x3_S2048x3_1_0_0_1_n_n.contr.Idx) :
    (dot_S2048x5_S5x3_S2048x3_1_0_0_1_n_n.lhsIdx i t 1).val = (t ⟨0, by decide⟩).val :=
  dot_S2048x5_S5x3_S2048x3_1_0_0_1_n_n.lhsIdx_val_of_single rfl i t
theorem mix_r0 (i : S2048x3.Idx) (t : dot_S2048x5_S5x3_S2048x3_1_0_0_1_n_n.contr.Idx) :
    (dot_S2048x5_S5x3_S2048x3_1_0_0_1_n_n.rhsIdx i t 0).val = (t ⟨0, by decide⟩).val :=
  dot_S2048x5_S5x3_S2048x3_1_0_0_1_n_n.rhsIdx_val_of_single rfl i t
theorem mix_r1 (i : S2048x3.Idx) (t : dot_S2048x5_S5x3_S2048x3_1_0_0_1_n_n.contr.Idx) :
    (dot_S2048x5_S5x3_S2048x3_1_0_0_1_n_n.rhsIdx i t 1).val = (i 1).val := by
  unfold DotDims.rhsIdx
  rw [dif_neg (show ¬(1 : Fin S5x3.rank) ∈ dot_S2048x5_S5x3_S2048x3_1_0_0_1_n_n.rhsBatch by decide), dif_pos (show (1 : Fin S5x3.rank) ∈ dot_S2048x5_S5x3_S2048x3_1_0_0_1_n_n.rhsNonContracting by decide)]
  rfl

/-- The first matrix product at row p and component k: the sum over the 1024 features. -/
theorem cross_apply {φ₁ φ₂ : FTy} (l : FVec Ideal S2048x1024 φ₁) (r : FVec Ideal S1024x5 φ₂) (p : Fin 2048) (k : Fin 5) :
    matmul dot_S2048x1024_S1024x5_S2048x5_1_0_0_1_n_n none l r (constant S2048x5 .f32 0x00000000#32) (ix2 p k)
      = ∑ d : Fin 1024, l (ix2 p d) * r (ix2 d k) := by
  simp only [matmul]
  rw [Ideal.matmul_constant_zero_apply, ← Equiv.sum_comp (contrEquiv1 dot_S2048x1024_S1024x5_S2048x5_1_0_0_1_n_n 1024 rfl rfl).symm]
  refine Finset.sum_congr rfl fun d _ => ?_
  have hk := contrEquiv1_symm_val dot_S2048x1024_S1024x5_S2048x5_1_0_0_1_n_n 1024 rfl rfl d
  have el : dot_S2048x1024_S1024x5_S2048x5_1_0_0_1_n_n.lhsIdx (ix2 p k) ((contrEquiv1 dot_S2048x1024_S1024x5_S2048x5_1_0_0_1_n_n 1024 rfl rfl).symm d) = ix2 p d :=
    funext fun a => Fin.ext (by
      match a with
      | ⟨0, _⟩ => exact cross_l0 _ _
      | ⟨1, _⟩ => exact (cross_l1 _ _).trans hk)
  have er : dot_S2048x1024_S1024x5_S2048x5_1_0_0_1_n_n.rhsIdx (ix2 p k) ((contrEquiv1 dot_S2048x1024_S1024x5_S2048x5_1_0_0_1_n_n 1024 rfl rfl).symm d) = ix2 d k :=
    funext fun a => Fin.ext (by
      match a with
      | ⟨0, _⟩ => exact (cross_r0 _ _).trans hk
      | ⟨1, _⟩ => exact cross_r1 _ _)
  rw [el, er]

/-- The second matrix product at row p and class q: the sum over the five components. -/
theorem mix_apply {φ₁ φ₂ : FTy} (l : FVec Ideal S2048x5 φ₁) (r : FVec Ideal S5x3 φ₂) (p : Fin 2048) (q : Fin 3) :
    matmul dot_S2048x5_S5x3_S2048x3_1_0_0_1_n_n none l r (constant S2048x3 .f32 0x00000000#32) (ix2 p q)
      = ∑ k : Fin 5, l (ix2 p k) * r (ix2 k q) := by
  simp only [matmul]
  rw [Ideal.matmul_constant_zero_apply, ← Equiv.sum_comp (contrEquiv1 dot_S2048x5_S5x3_S2048x3_1_0_0_1_n_n 5 rfl rfl).symm]
  refine Finset.sum_congr rfl fun d _ => ?_
  have hk := contrEquiv1_symm_val dot_S2048x5_S5x3_S2048x3_1_0_0_1_n_n 5 rfl rfl d
  have el : dot_S2048x5_S5x3_S2048x3_1_0_0_1_n_n.lhsIdx (ix2 p q) ((contrEquiv1 dot_S2048x5_S5x3_S2048x3_1_0_0_1_n_n 5 rfl rfl).symm d) = ix2 p d :=
    funext fun a => Fin.ext (by
      match a with
      | ⟨0, _⟩ => exact mix_l0 _ _
      | ⟨1, _⟩ => exact (mix_l1 _ _).trans hk)
  have er : dot_S2048x5_S5x3_S2048x3_1_0_0_1_n_n.rhsIdx (ix2 p q) ((contrEquiv1 dot_S2048x5_S5x3_S2048x3_1_0_0_1_n_n 5 rfl rfl).symm d) = ix2 d q :=
    funext fun a => Fin.ext (by
      match a with
      | ⟨0, _⟩ => exact (mix_r0 _ _).trans hk
      | ⟨1, _⟩ => exact mix_r1 _ _)
  rw [el, er]

/-- The body's stored value at row p and class q of the block. -/
theorem pay_apply (v0 : Vec Ideal S2048x1024 .f32) (v5 : Vec Ideal S1024x5 .bf16) (v8 : Vec Ideal S1x5 .f32)
    (v22 : Vec Ideal S5x3 .bf16) (v25 : Vec Ideal S1x3 .f32) (p : Fin 2048) (q : Fin 3) :
    k0_pay1 (F := Ideal) v0 v5 v8 v22 v25 (ix2 p q)
      = (∑ k : Fin 5, Ideal.exp (Ideal.ofBits .f32 0xBF000000#32
            * max (((∑ d : Fin 1024, v0 (ix2 p d) * v0 (ix2 p d)) + v8 (ix2 (0 : Fin 1) k))
                - Ideal.ofBits .f32 0x40000000#32 * ∑ d : Fin 1024, v0 (ix2 p d) * v5 (ix2 d k)) (Ideal.ofBits .f32 0x00000000#32))
          * v22 (ix2 k q))
        + v25 (ix2 (0 : Fin 1) q) := by
  unfold k0_pay1
  simp only [addf_apply, row3_apply, mix_apply, shapeCast_self, truncf_apply, exp_apply, mulf_apply, broadcast_apply,
    maximumf_apply, subf_apply, keepdims_apply, row5_apply, rowsum_apply, cross_apply, Ideal.ofBits_def]
  rw [rowsum_apply (mulf v0 v0) _ _ p]
  simp only [mulf_apply]

end Cert.Cbc.Body

end
-- ==== Proof.KernelValue.lean ====
/-
  The kernel's result array as one function of the argument arrays.  The grid has 16 points; point t reads rows
  2048·t … 2048·t + 2047 of x (all 1024 features) and the four small tables whole, and writes rows
  2048·t … 2048·t + 2047 of the [32768, 3] result.  So entry (b, q) of the result is the body's stored value at row
  b mod 2048 of point b / 2048, which depends on row b of x only:
      Σ_k exp(−½ · max(‖x_b‖² + ‖c_k‖² − 2·⟨x_b, c_k⟩, 0)) · (w(k,q) / S(q))  +  N(q) / S(q).
  The sixteen row blocks tile the result, so every entry is written exactly so.
-/
import proofs.«105461_j34033320854004_2_alg».proof.Proof.Gen.KernelIdeal.Value
import proofs.«105461_j34033320854004_2_alg».proof.Proof.Host
import proofs.«105461_j34033320854004_2_alg».proof.Proof.Body

noncomputable section

namespace Cert.Cbc.Kernel

open Cert.KernelIdeal Cert.KernelIdeal.Gen Idealize.ShloMosaic Idealize.ShloMosaic.TcCoe Idealize.SL.Sem
open Idealize.ShloMosaic.ValueIdx
open Idealize.ShloMosaic.Pipeline (Dat)

/-- Entry (b, q) of the kernel's result, from the three argument arrays: the similarities of row b to the five
    components, weighted by the divided weights of class q, plus the divided offset of class q. -/
def entry (x0 : (⟨Cert.ReferenceIdeal.S32768x1024, .f32⟩ : BufTy).Contents (Elt Ideal))
    (x1 : (⟨Cert.ReferenceIdeal.S5x1024, .f32⟩ : BufTy).Contents (Elt Ideal))
    (x2 : (⟨Cert.ReferenceIdeal.S5x3x2, .f32⟩ : BufTy).Contents (Elt Ideal)) (b : Fin 32768) (q : Fin 3) : EReal :=
  (∑ k : Fin 5, Ideal.exp (Ideal.ofBits .f32 0xBF000000#32
        * max (((∑ d : Fin 1024, x0 (ix2 b d) * x0 (ix2 b d)) + Cert.ReferenceIdeal.Read.val_main_v4 (F := Ideal) x1 (ix1 k))
            - Ideal.ofBits .f32 0x40000000#32 * ∑ d : Fin 1024, x0 (ix2 b d) * Cert.ReferenceIdeal.Read.val_main_v9 (F := Ideal) x1 (ix2 d k))
          (Ideal.ofBits .f32 0x00000000#32))
      * Ideal.div (Cert.ReferenceIdeal.Read.val_main_v30 (F := Ideal) x2 (ix2 k q)) (Cert.ReferenceIdeal.Read.val_main_v37 (F := Ideal) x2 (ix1 q)))
    + Ideal.div (Cert.ReferenceIdeal.Read.val_main_v32 (F := Ideal) x2 (ix1 q)) (Cert.ReferenceIdeal.Read.val_main_v37 (F := Ideal) x2 (ix1 q))

/-- The whole [32768, 3] result. -/
def result (x0 : (⟨Cert.ReferenceIdeal.S32768x1024, .f32⟩ : BufTy).Contents (Elt Ideal))
    (x1 : (⟨Cert.ReferenceIdeal.S5x1024, .f32⟩ : BufTy).Contents (Elt Ideal))
    (x2 : (⟨Cert.ReferenceIdeal.S5x3x2, .f32⟩ : BufTy).Contents (Elt Ideal)) : S32768x3.Idx → EReal :=
  fun i => entry x0 x1 x2 (i 0) (i 1)

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: x and the result move one block of rows per point; the four tables stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of x's block at point t is row 2048·t + p of x. -/
theorem xblock_apply (c : Dev nD) (t : Fin cfg0.N) (p : Fin 2048) (d : Fin 1024) (b : Fin 32768) (hb : b.val = 2048 * t.val + p.val) :
    (iblk m c 0 t : Vec Ideal S2048x1024 .f32) (ix2 p d)
      = (m ((c : Thread nD τ).loc main_arg0) : S32768x1024.Idx → EReal) (ix2 b d) := by
  obtain ⟨e0, e1, -⟩ := idx_facts t
  unfold iblk
  rw [View.read_apply]
  show V m c main_arg0 _ = _
  rw [V_main_arg0]
  refine congrArg (m ((c : Thread nD τ).loc main_arg0) : S32768x1024.Idx → EReal) (funext fun a => Fin.ext ?_)
  match a with
  | ⟨0, _⟩ => show win0_0.index t (0 : Fin 2) * 2048 + 1 * p.val = b.val; rw [e0, hb]; omega
  | ⟨1, _⟩ => show win0_0.index t (1 : Fin 2) * 1024 + 1 * d.val = d.val; rw [e1]; omega

/-- The four tables' blocks are the tables. -/
theorem table1_apply (c : Dev nD) (t : Fin cfg0.N) (y : S1024x5.Idx) :
    (iblk m c 1 t : Vec Ideal S1024x5 .bf16) y = (V m c main_v4 : S1024x5.Idx → EReal) y := by
  obtain ⟨-, -, e0, e1, -⟩ := idx_facts t
  unfold iblk
  rw [View.read_apply]
  show V m c main_v4 _ = _
  refine congrArg (V m c main_v4 : S1024x5.Idx → EReal) (funext fun a => Fin.ext ?_)
  match a with
  | ⟨0, _⟩ => show win0_1.index t (0 : Fin 2) * 1024 + 1 * (y 0).val = (y 0).val; rw [e0]; omega
  | ⟨1, _⟩ => show win0_1.index t (1 : Fin 2) * 5 + 1 * (y 1).val = (y 1).val; rw [e1]; omega

theorem table2_apply (c : Dev nD) (t : Fin cfg0.N) (y : S1x5.Idx) :
    (iblk m c 2 t : Vec Ideal S1x5 .f32) y = (V m c main_v2 : S1x5.Idx → EReal) y := by
  obtain ⟨-, -, -, -, e0, e1, -⟩ := idx_facts t
  unfold iblk
  rw [View.read_apply]
  show V m c main_v2 _ = _
  refine congrArg (V m c main_v2 : S1x5.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 5 + 1 * (y 1).val = (y 1).val; rw [e1]; omega

theorem table3_apply (c : Dev nD) (t : Fin cfg0.N) (y : S5x3.Idx) :
    (iblk m c 3 t : Vec Ideal S5x3 .bf16) y = (V m c main_v22 : S5x3.Idx → EReal) y := by
  obtain ⟨-, -, -, -, -, -, e0, e1, -⟩ := idx_facts t
  unfold iblk
  rw [View.read_apply]
  show V m c main_v22 _ = _
  refine congrArg (V m c main_v22 : S5x3.Idx → EReal) (funext fun a => Fin.ext ?_)
  match a with
  | ⟨0, _⟩ => show win0_3.index t (0 : Fin 2) * 5 + 1 * (y 0).val = (y 0).val; rw [e0]; omega
  | ⟨1, _⟩ => show win0_3.index t (1 : Fin 2) * 3 + 1 * (y 1).val = (y 1).val; rw [e1]; omega

theorem table4_apply (c : Dev nD) (t : Fin cfg0.N) (y : S1x3.Idx) :
    (iblk m c 4 t : Vec Ideal S1x3 .f32) y = (V m c main_v24 : S1x3.Idx → EReal) y := by
  obtain ⟨-, -, -, -, -, -, -, -, e0, e1, -⟩ := idx_facts t
  unfold iblk
  rw [View.read_apply]
  show V m c main_v24 _ = _
  refine congrArg (V m c main_v24 : S1x3.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 3 + 1 * (y 1).val = (y 1).val; rw [e1]; omega

/-- The tables' blocks at an entry, as the reference's stages. -/
theorem compT_blk (c : Dev nD) (t : Fin cfg0.N) (d : Fin 1024) (k : Fin 5) :
    (iblk m c 1 t : Vec Ideal S1024x5 .bf16) (ix2 d k)
      = Cert.ReferenceIdeal.Read.val_main_v9 (F := Ideal) (m ((c : Thread nD τ).loc main_arg1)) (ix2 d k) :=
  (table1_apply m c t (ix2 d k)).trans (Host.compT_apply m c d k)

theorem compSq_blk (c : Dev nD) (t : Fin cfg0.N) (k : Fin 5) :
    (iblk m c 2 t : Vec Ideal S1x5 .f32) (ix2 (0 : Fin 1) k)
      = Cert.ReferenceIdeal.Read.val_main_v4 (F := Ideal) (m ((c : Thread nD τ).loc main_arg1)) (ix1 k) :=
  (table2_apply m c t (ix2 (0 : Fin 1) k)).trans (Host.compSq_apply m c k)

theorem weights_blk (c : Dev nD) (t : Fin cfg0.N) (k : Fin 5) (q : Fin 3) :
    (iblk m c 3 t : Vec Ideal S5x3 .bf16) (ix2 k q)
      = Ideal.div (Cert.ReferenceIdeal.Read.val_main_v30 (F := Ideal) (m ((c : Thread nD τ).loc main_arg2)) (ix2 k q))
          (Cert.ReferenceIdeal.Read.val_main_v37 (F := Ideal) (m ((c : Thread nD τ).loc main_arg2)) (ix1 q)) :=
  (table3_apply m c t (ix2 k q)).trans (Host.weights_apply m c k q)

theorem offset_blk (c : Dev nD) (t : Fin cfg0.N) (q : Fin 3) :
    (iblk m c 4 t : Vec Ideal S1x3 .f32) (ix2 (0 : Fin 1) q)
      = Ideal.div (Cert.ReferenceIdeal.Read.val_main_v32 (F := Ideal) (m ((c : Thread nD τ).loc main_arg2)) (ix1 q))
          (Cert.ReferenceIdeal.Read.val_main_v37 (F := Ideal) (m ((c : Thread nD τ).loc main_arg2)) (ix1 q)) :=
  (table4_apply m c t (ix2 (0 : Fin 1) q)).trans (Host.offset_apply m c q)

/-- What point t writes back is rows 2048·t … 2048·t + 2047 of `result`. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1)) (m ((c : Thread nD τ).loc main_arg2))) := by
  rw [Value.flushed5]
  unfold out0_5
  rw [View.canon_unit_zero hz]
  simp only [View.ld_unit_zero (S := S2048x1024) hz, View.ld_unit_zero (S := S1024x5) hz, View.ld_unit_zero (S := S1x5) hz,
    View.ld_unit_zero (S := S5x3) hz, View.ld_unit_zero (S := S1x3) hz]
  funext j
  obtain ⟨p, q, rfl⟩ : ∃ (p : Fin 2048) (q : Fin 3), j = ix2 p q := ⟨j 0, j 1, eq_ix2 j⟩
  obtain ⟨-, -, -, -, -, -, -, -, -, -, e10, e11⟩ := idx_facts t
  have hN : cfg0.N = 16 := N_0
  have ht := t.isLt
  have hb : 2048 * t.val + p.val < 32768 := by omega
  show k0_pay1 (iblk m c 0 t) (iblk m c 1 t) (iblk m c 2 t) (iblk m c 3 t) (iblk m c 4 t) (ix2 p q)
    = result _ _ _ (((cfg0.win 5).blk t).view.emb (ix2 p q))
  refine (Body.pay_apply (iblk m c 0 t) (iblk m c 1 t) (iblk m c 2 t) (iblk m c 3 t) (iblk m c 4 t) p q).trans ?_
  have hemb : ((cfg0.win 5).blk t).view.emb (ix2 p q) = ix2 (⟨2048 * t.val + p.val, hb⟩ : Fin 32768) q :=
    funext fun a => Fin.ext (by
      match a with
      | ⟨0, _⟩ => show win0_5.index t (0 : Fin 2) * 2048 + 1 * p.val = 2048 * t.val + p.val; rw [e10]; omega
      | ⟨1, _⟩ => show win0_5.index t (1 : Fin 2) * 3 + 1 * q.val = q.val; rw [e11]; omega)
  rw [hemb]
  show _ = entry _ _ _ (⟨2048 * t.val + p.val, hb⟩ : Fin 32768) q
  unfold entry
  have hx : ∀ d : Fin 1024, (iblk m c 0 t : Vec Ideal S2048x1024 .f32) (ix2 p d)
      = (m ((c : Thread nD τ).loc main_arg0) : S32768x1024.Idx → EReal) (ix2 (⟨2048 * t.val + p.val, hb⟩ : Fin 32768) d) :=
    fun d => xblock_apply m c t p d ⟨2048 * t.val + p.val, hb⟩ rfl
  simp only [hx, compT_blk, compSq_blk, weights_blk, offset_blk]

/-- An entry is in point t's block when each coordinate is in the block's range on its axis. -/
theorem mem_blk (t : Fin cfg0.N) (i : S32768x3.Idx) :
    i ∈ ((cfg0.win 5).blk t).view.set ↔ ∀ a : Fin 2, win0_5.index t a * S2048x3.size a ≤ (i a).val ∧ (i a).val < win0_5.index t a * S2048x3.size a + S2048x3.size a := by
  show i ∈ ((View.whole main_v25).slice (win0_5.rect t)).set ↔ _
  rw [View.set_slice_whole, Rect.mem_set_unit]
  exact Iff.rfl

/-- The sixteen row blocks cover the result: row r lies in the block of point r / 2048. -/
theorem cover (i : S32768x3.Idx) : ∃ t : Fin cfg0.N, (cfg0.win 5).flush t = true ∧ i ∈ ((cfg0.win 5).blk t).view.set := by
  have h0 : (i 0).val < 32768 := (i 0).isLt
  have h1 : (i 1).val < 3 := (i 1).isLt
  have hN : cfg0.N = 16 := N_0
  have hlt : (i 0).val / 2048 < cfg0.N := by rw [hN]; omega
  obtain ⟨-, -, -, -, -, -, -, -, -, -, e10, e11⟩ := idx_facts ⟨(i 0).val / 2048, hlt⟩
  refine ⟨⟨(i 0).val / 2048, hlt⟩, flush0_5 _, ?_⟩
  rw [mem_blk]
  intro a
  match a with
  | ⟨0, _⟩ =>
    show win0_5.index ⟨(i 0).val / 2048, hlt⟩ (0 : Fin 2) * 2048 ≤ (i 0).val ∧ (i 0).val < win0_5.index ⟨(i 0).val / 2048, hlt⟩ (0 : Fin 2) * 2048 + 2048
    rw [e10]; show (i 0).val / 2048 * 2048 ≤ (i 0).val ∧ (i 0).val < (i 0).val / 2048 * 2048 + 2048; omega
  | ⟨1, _⟩ =>
    show win0_5.index ⟨(i 0).val / 2048, hlt⟩ (1 : Fin 2) * 3 ≤ (i 1).val ∧ (i 1).val < win0_5.index ⟨(i 0).val / 2048, hlt⟩ (1 : Fin 2) * 3 + 3
    rw [e11]; omega

/-- So the result array ends holding `result` of the argument arrays. -/
theorem final (c : Dev nD) : (dats m 0 c).arrAt 5 cfg0.N
    = result (m ((c : Thread nD τ).loc main_arg0)) (m ((c : Thread nD τ).loc main_arg1)) (m ((c : Thread nD τ).loc main_arg2)) :=
  (dats m 0 c).arrAt_eq_of_cover 5 _ (fun t _ => flushed_eq m c t) cover

/-- The kernel's run: every weakly fair execution terminates with the result array at `result` of the arguments,
    the arguments unchanged. -/
theorem run : θ_run defs (onTc (τ := τ) (main (F := Ideal))) ⟨m, fun _ => 0, ρ⟩ fun r => ∀ c : Dev nD,
      r.2.mem ((c : Thread nD τ).loc main_v25)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Cbc.Kernel

end
-- ==== Proof.RefRead.lean ====
/-
  The reference, read entry by entry.  Its stages (the imported generated module names them `val_main_vN`) are read
  here at explicit coordinates: the clamped squared distance d²(b,k) = max(‖x_b‖² + ‖c_k‖² − 2·⟨x_b, c_k⟩, 0); the
  similarity exp((−d²)/2); the clipped reasonings p(c,k), q(c,k) of the two planes of the reasoning tensor (entry
  (k, c, 0) and (k, c, 1)); n = (1 − p)·q, the weight p − n, the offset Σ_k n and the total Σ_k (p + n); and the result
  ( Σ_k s(b,k)·w(k,c) + N(c) ) / S(c).
-/
import proofs.«105461_j34033320854004_2_alg».proof.Proof.Gen.ReferenceIdeal.Read
import Idealize.ShloMosaic.Lib.ValueIdx
import Idealize.ShloMosaic.PureOps.Ideal.Laws

noncomputable section

namespace Cert.Cbc.Ref

open Cert.ReferenceIdeal Cert.ReferenceIdeal.Read Idealize.ShloMosaic Idealize.ShloMosaic.ValueIdx

variable (x0 : (⟨S32768x1024, .f32⟩ : BufTy).Contents (Elt Ideal)) (x1 : (⟨S5x1024, .f32⟩ : BufTy).Contents (Elt Ideal))
  (x2 : (⟨S5x3x2, .f32⟩ : BufTy).Contents (Elt Ideal))

/-- The clamped squared distance of row b to component k. -/
theorem dist_apply (b : Fin 32768) (k : Fin 5) :
    val_main_v15 (F := Ideal) x0 x1 (ix2 b k)
      = max (((∑ d : Fin 1024, x0 (ix2 b d) * x0 (ix2 b d)) + val_main_v4 (F := Ideal) x1 (ix1 k))
          - Ideal.ofBits .f32 0x40000000#32 * ∑ d : Fin 1024, x0 (ix2 b d) * val_main_v9 (F := Ideal) x1 (ix2 d k)) 0 := by
  have e1 : ∀ d : Fin 1024, idx_main_v1 (idx_main_v2 (idx_main_v6 (ix2 b k))) d = ix2 b d := fun d =>
    funext fun a => Fin.ext (by match a with | ⟨0, _⟩ => rfl | ⟨1, _⟩ => rfl)
  have e2 : idx_main_v5 (idx_main_v7 (ix2 b k)) = ix1 k :=
    funext fun a => Fin.ext (by match a with | ⟨0, _⟩ => rfl)
  have e3 : ∀ d : Fin 1024, lidx_main_v10 (ix2 b k) d = ix2 b d := fun d =>
    funext fun a => Fin.ext (by match a with | ⟨0, _⟩ => rfl | ⟨1, _⟩ => rfl)
  have e4 : ∀ d : Fin 1024, ridx_main_v10 (ix2 b k) d = ix2 d k := fun d =>
    funext fun a => Fin.ext (by match a with | ⟨0, _⟩ => rfl | ⟨1, _⟩ => rfl)
  simp only [val_main_v15_apply, val_main_v14_apply, val_main_cst_2_apply, val_main_v13_apply, val_main_v12_apply,
    val_main_v11_apply, val_main_cst_1_apply, val_main_v10_apply, val_main_v8_apply, val_main_v7_apply, val_main_v6_apply,
    val_main_v5_apply, val_main_v2_apply, val_main_v1_apply, val_main_cst_apply, val_main_v0_apply,
    Ideal.maximumf_def, Ideal.subf_def, Ideal.mulf_def, Ideal.addf_def, Ideal.ofBits_def, Ideal.ofBits_zero_f32, zero_add,
    e1, e2, e3, e4]

/-- The similarity: the exponential of minus the clamped squared distance, halved. -/
theorem sim_apply (b : Fin 32768) (k : Fin 5) :
    val_main_v19 (F := Ideal) x0 x1 (ix2 b k)
      = Ideal.exp (Ideal.div (-(val_main_v15 (F := Ideal) x0 x1 (ix2 b k))) (Ideal.ofBits .f32 0x40000000#32)) := by
  simp only [val_main_v19_apply, val_main_v18_apply, val_main_v17_apply, val_main_cst_3_apply, val_main_v16_apply,
    Ideal.hostUnary_exp_def, Ideal.hostDivf_def, Ideal.hostNegf_def, Ideal.negf_def, Ideal.ofBits_def]

/-- The positive reasoning of class c and component k: entry (k, c, 0) clipped into [0, 1]. -/
theorem clip0_apply (c : Fin 3) (k : Fin 5) :
    val_main_v23 (F := Ideal) x2 (ix2 c k)
      = min (Ideal.ofBits .f32 0x3F800000#32) (max 0 (x2 (ix3 k c (0 : Fin 2)))) := by
  have e : idx_main_v20 (idx_main_v22 (idx_main_v23 (ix2 c k))) = ix3 k c (0 : Fin 2) :=
    funext fun a => Fin.ext (by
      have hc := c.isLt; have hk := k.isLt
      match a with
      | ⟨0, _⟩ => show (c.val * 5 + k.val) % 5 = k.val; omega
      | ⟨1, _⟩ => show (c.val * 5 + k.val) / 5 % 3 = c.val; omega
      | ⟨2, _⟩ => rfl)
  simp only [val_main_v23_apply, val_main_v22_apply, val_main_v21_apply, val_main_call0_v4_apply, val_main_call0_v3_apply,
    val_main_cst_5_apply, val_main_call0_v2_apply, val_main_call0_v1_apply, val_main_call0_v0_apply, val_main_cst_4_apply,
    val_main_v20_apply, Ideal.minimumf_def, Ideal.maximumf_def, Ideal.ofBits_def, Ideal.ofBits_zero_f32, e]

/-- The second plane: entry (k, c, 1) clipped into [0, 1]. -/
theorem clip1_apply (c : Fin 3) (k : Fin 5) :
    val_main_v25 (F := Ideal) x2 (ix2 c k)
      = min (Ideal.ofBits .f32 0x3F800000#32) (max 0 (x2 (ix3 k c (1 : Fin 2)))) := by
  have e : idx_main_v20 (idx_main_v24 (idx_main_v25 (ix2 c k))) = ix3 k c (1 : Fin 2) :=
    funext fun a => Fin.ext (by
      have hc := c.isLt; have hk := k.isLt
      match a with
      | ⟨0, _⟩ => show (c.val * 5 + k.val) % 5 = k.val; omega
      | ⟨1, _⟩ => show (c.val * 5 + k.val) / 5 % 3 = c.val; omega
      | ⟨2, _⟩ => rfl)
  simp only [val_main_v25_apply, val_main_v24_apply, val_main_v21_apply, val_main_call0_v4_apply, val_main_call0_v3_apply,
    val_main_cst_5_apply, val_main_call0_v2_apply, val_main_call0_v1_apply, val_main_call0_v0_apply, val_main_cst_4_apply,
    val_main_v20_apply, Ideal.minimumf_def, Ideal.maximumf_def, Ideal.ofBits_def, Ideal.ofBits_zero_f32, e]

/-- The negative reasoning n = (1 − p)·q. -/
theorem neg_apply (c : Fin 3) (k : Fin 5) :
    val_main_v28 (F := Ideal) x2 (ix2 c k)
      = (Ideal.ofBits .f32 0x3F800000#32 - val_main_v23 (F := Ideal) x2 (ix2 c k)) * val_main_v25 (F := Ideal) x2 (ix2 c k) := by
  simp only [val_main_v28_apply, val_main_v27_apply, val_main_v26_apply, val_main_cst_6_apply, Ideal.mulf_def, Ideal.subf_def,
    Ideal.ofBits_def]

/-- The weight of component k for class c: p − n, transposed. -/
theorem weight_apply (k : Fin 5) (c : Fin 3) :
    val_main_v30 (F := Ideal) x2 (ix2 k c)
      = val_main_v23 (F := Ideal) x2 (ix2 c k) - val_main_v28 (F := Ideal) x2 (ix2 c k) := by
  have e : idx_main_v30 (ix2 k c) = ix2 c k := funext fun a => Fin.ext (by match a with | ⟨0, _⟩ => rfl | ⟨1, _⟩ => rfl)
  simp only [val_main_v30_apply, val_main_v29_apply, Ideal.subf_def, e]

/-- The offset of class c: the sum of its negative reasonings. -/
theorem offset_apply (c : Fin 3) :
    val_main_v32 (F := Ideal) x2 (ix1 c) = 0 + ∑ k : Fin 5, val_main_v28 (F := Ideal) x2 (ix2 c k) := by
  have e : ∀ k : Fin 5, idx_main_v32 (ix1 c) k = ix2 c k := fun k =>
    funext fun a => Fin.ext (by match a with | ⟨0, _⟩ => rfl | ⟨1, _⟩ => rfl)
  simp only [val_main_v32_apply, val_main_cst_7_apply, Ideal.ofBits_def, Ideal.ofBits_zero_f32, e]

/-- The total of class c: the sum of its positive and negative reasonings. -/
theorem total_apply (c : Fin 3) :
    val_main_v37 (F := Ideal) x2 (ix1 c)
      = 0 + ∑ k : Fin 5, (val_main_v23 (F := Ideal) x2 (ix2 c k) + val_main_v28 (F := Ideal) x2 (ix2 c k)) := by
  have e : ∀ k : Fin 5, idx_main_v37 (ix1 c) k = ix2 c k := fun k =>
    funext fun a => Fin.ext (by match a with | ⟨0, _⟩ => rfl | ⟨1, _⟩ => rfl)
  simp only [val_main_v37_apply, val_main_cst_8_apply, val_main_v36_apply, Ideal.addf_def, Ideal.ofBits_def, Ideal.ofBits_zero_f32, e]

/-- The result at row b and class c: the weighted sum of similarities plus the offset, divided by the total. -/
theorem out_apply (b : Fin 32768) (c : Fin 3) :
    val_main_v40 (F := Ideal) x0 x1 x2 (ix2 b c)
      = Ideal.div ((∑ k : Fin 5, val_main_v19 (F := Ideal) x0 x1 (ix2 b k) * val_main_v30 (F := Ideal) x2 (ix2 k c))
          + val_main_v32 (F := Ideal) x2 (ix1 c)) (val_main_v37 (F := Ideal) x2 (ix1 c)) := by
  have e1 : ∀ k : Fin 5, lidx_main_v31 (ix2 b c) k = ix2 b k := fun k =>
    funext fun a => Fin.ext (by match a with | ⟨0, _⟩ => rfl | ⟨1, _⟩ => rfl)
  have e2 : ∀ k : Fin 5, ridx_main_v31 (ix2 b c) k = ix2 k c := fun k =>
    funext fun a => Fin.ext (by match a with | ⟨0, _⟩ => rfl | ⟨1, _⟩ => rfl)
  have e3 : idx_main_v33 (idx_main_v34 (ix2 b c)) = ix1 c := funext fun a => Fin.ext (by match a with | ⟨0, _⟩ => rfl)
  have e4 : idx_main_v38 (idx_main_v39 (ix2 b c)) = ix1 c := funext fun a => Fin.ext (by match a with | ⟨0, _⟩ => rfl)
  simp only [val_main_v40_apply, val_main_v39_apply, val_main_v38_apply, val_main_v35_apply, val_main_v34_apply, val_main_v33_apply,
    val_main_v31_apply, Ideal.hostDivf_def, Ideal.addf_def, e1, e2, e3, e4]

end Cert.Cbc.Ref

end
-- ==== Proof.Law.lean ====
/-
  The arithmetic that joins the two programs, on the extended reals and free of either program's text.

  Both programs compute, for a row b and a class c,
      probs(b, c) = ( Σ_k s(b,k) · w(c,k)  +  N(c) ) / S(c),
  where s(b,k) = exp(−d²(b,k)/2) is the similarity of row b to component k, w = p − n the difference of the
  positive and negative reasonings, N(c) = Σ_k n(c,k) and S(c) = Σ_k (p(c,k) + n(c,k)).  One program divides last;
  the other divides the weights and the offset first:  Σ_k s(b,k) · (w(c,k)/S(c)) + N(c)/S(c).

  The reasonings are clipped into [0, 1] before anything else, so p, n, w, N, S are real numbers whatever the inputs, and
  S(c) ≥ 0 with S(c) = 0 only when every p(c,k) and n(c,k) vanishes.  The similarity is the exponential of minus one half of
  a maximum with zero, hence a real number too.  For S(c) ≠ 0 the two forms agree by distributivity over the reals.  For
  S(c) = 0 every quotient is the junk value 0/0 = −∞: the first form is −∞, and the second form ends in "+ (−∞)", which
  is −∞ on the extended reals whatever the sum before it.  No finiteness of the inputs is used.
-/
import Idealize.ShloMosaic.PureOps.Ideal
import Idealize.ShloMosaic.PureOps.Ideal.Laws
import Mathlib.Data.EReal.Basic
import Mathlib.Data.EReal.Operations

noncomputable section

namespace Cert.Cbc

open Idealize.ShloMosaic
open scoped BigOperators

/-! ## The float literals of the two programs, as the numbers they denote -/

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- A finite sum of real numbers, read in the extended reals, is the sum of the summands read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The similarity: exp(−½·y) against exp((−y)/2) -/

/-- Scaling by minus one half is negating and then dividing by two, on every extended real. -/
theorem neg_half_mul (y : EReal) : ((-(1 / 2) : ℝ) : EReal) * y = Ideal.div (-y) ((2 : ℝ) : EReal) := by
  rw [Ideal.div_coe (by norm_num : (2 : ℝ) ≠ 0), EReal.coe_neg, EReal.neg_mul, EReal.neg_mul, mul_comm]

/-- The exponential of an extended real that is not plus infinity is a real number. -/
theorem exp_real {y : EReal} (h : y ≠ ⊤) : ∃ r : ℝ, Ideal.exp y = (r : EReal) := by
  induction y using EReal.rec with
  | bot => exact ⟨0, by rw [Ideal.exp_bot, EReal.coe_zero]⟩
  | coe r => exact ⟨Real.exp r, rfl⟩
  | top => exact absurd rfl h

/-- Minus one half of a maximum with zero is never plus infinity. -/
theorem neg_half_max_ne_top (z : EReal) : ((-(1 / 2) : ℝ) : EReal) * max z 0 ≠ ⊤ := by
  have h0 : (0 : EReal) ≤ max z 0 := le_max_right _ _
  intro h
  have : ((-(1 / 2) : ℝ) : EReal) * max z 0 ≤ 0 :=
    EReal.mul_nonpos_iff.mpr (Or.inr ⟨by exact_mod_cast (by norm_num : (-(1/2) : ℝ) ≤ 0), h0⟩)
  rw [h] at this
  exact absurd this (by simp)

/-! ## The reasonings: clipped values are reals of the unit interval -/

/-- A value clipped into the unit interval is a real number of the unit interval. -/
theorem clip_real (u : EReal) : ∃ a : ℝ, 0 ≤ a ∧ a ≤ 1 ∧ min ((1 : ℝ) : EReal) (max 0 u) = (a : EReal) := by
  have h0 : (0 : EReal) ≤ min ((1 : ℝ) : EReal) (max 0 u) := le_min (by exact_mod_cast zero_le_one) (le_max_left _ _)
  have h1 : min ((1 : ℝ) : EReal) (max 0 u) ≤ ((1 : ℝ) : EReal) := min_le_left _ _
  have hb : min ((1 : ℝ) : EReal) (max 0 u) ≠ ⊥ := fun h => by rw [h] at h0; exact absurd h0 (by simp)
  have ht : min ((1 : ℝ) : EReal) (max 0 u) ≠ ⊤ := fun h => by rw [h, top_le_iff] at h1; exact absurd h1 (EReal.coe_ne_top 1)
  lift min ((1 : ℝ) : EReal) (max 0 u) to ℝ using ⟨ht, hb⟩ with a
  exact ⟨a, by exact_mod_cast h0, by exact_mod_cast h1, rfl⟩

/-- For one class: with p_k and q_k the clipped positive and negative reasonings and n_k = (1 − p_k)·q_k, the weights
    w_k = p_k − n_k, the offset N = Σ n_k and the total S = Σ (p_k + n_k) are real numbers, and S = 0 forces every
    weight and the offset to vanish (all the summands of S are nonnegative). -/
theorem tables_real (u0 u1 : Fin 5 → EReal) :
    ∃ (w : Fin 5 → ℝ) (n s : ℝ),
      (∀ k, min ((1 : ℝ) : EReal) (max 0 (u0 k))
          - (((1 : ℝ) : EReal) - min ((1 : ℝ) : EReal) (max 0 (u0 k))) * min ((1 : ℝ) : EReal) (max 0 (u1 k)) = (w k : EReal))
      ∧ (0 + ∑ k, (((1 : ℝ) : EReal) - min ((1 : ℝ) : EReal) (max 0 (u0 k))) * min ((1 : ℝ) : EReal) (max 0 (u1 k))) = (n : EReal)
      ∧ (0 + ∑ k, (min ((1 : ℝ) : EReal) (max 0 (u0 k))
          + (((1 : ℝ) : EReal) - min ((1 : ℝ) : EReal) (max 0 (u0 k))) * min ((1 : ℝ) : EReal) (max 0 (u1 k)))) = (s : EReal)
      ∧ (s = 0 → (∀ k, w k = 0) ∧ n = 0) := by
  choose a ha0 ha1 hA using fun k => clip_real (u0 k)
  choose b hb0 hb1 hB using fun k => clip_real (u1 k)
  refine ⟨fun k => a k - (1 - a k) * b k, ∑ k, (1 - a k) * b k, ∑ k, (a k + (1 - a k) * b k), ?_, ?_, ?_, ?_⟩
  · intro k
    rw [hA, hB, ← EReal.coe_sub, ← EReal.coe_mul, ← EReal.coe_sub]
  · simp only [hA, hB, zero_add, ← EReal.coe_sub, ← EReal.coe_mul, ← coe_sum]
  · simp only [hA, hB, zero_add, ← EReal.coe_sub, ← EReal.coe_mul, ← EReal.coe_add, ← coe_sum]
  · intro hs
    have hn : ∀ k, 0 ≤ (1 - a k) * b k := fun k => mul_nonneg (sub_nonneg.mpr (ha1 k)) (hb0 k)
    have hz := (Finset.sum_eq_zero_iff_of_nonneg (fun k _ => add_nonneg (ha0 k) (hn k))).mp hs
    have hk : ∀ k, a k = 0 ∧ (1 - a k) * b k = 0 := fun k => by
      have h := hz k (Finset.mem_univ k)
      have h1 := ha0 k
      have h2 := hn k
      constructor <;> linarith
    exact ⟨fun k => by show a k - (1 - a k) * b k = 0; rw [(hk k).2, (hk k).1, sub_zero],
      Finset.sum_eq_zero fun k _ => (hk k).2⟩

/-! ## The law -/

/-- Zero over zero is the junk value minus infinity. -/
theorem div_zero_zero : Ideal.div 0 0 = ⊥ := by
  simp [Ideal.div]

/-- Over reals: dividing the weighted sum plus the offset by the class total is the weighted sum of the divided
    weights plus the divided offset, also when the total is zero, provided the weights and the offset then vanish too. -/
theorem fold_divide (s w : Fin 5 → ℝ) (N S : ℝ) (hS : S = 0 → (∀ k, w k = 0) ∧ N = 0) :
    (∑ k, (s k : EReal) * Ideal.div (w k : EReal) (S : EReal)) + Ideal.div (N : EReal) (S : EReal)
      = Ideal.div ((∑ k, (s k : EReal) * (w k : EReal)) + (N : EReal)) (S : EReal) := by
  by_cases h : S = 0
  · obtain ⟨hw, hN⟩ := hS h
    subst h
    subst hN
    simp only [hw, EReal.coe_zero, mul_zero, Finset.sum_const_zero, add_zero, div_zero_zero, EReal.add_bot]
  · simp only [Ideal.div_coe h, ← EReal.coe_mul, ← coe_sum, ← EReal.coe_add]
    congr 1
    rw [add_mul, Finset.sum_mul]
    congr 1
    exact Finset.sum_congr rfl fun k _ => by ring

/-- THE LAW for one row and one class: y_k the squared distances before the clamp at zero, W, N, S the class's weights,
    offset and total (real numbers, the weights and the offset vanishing with the total).  Dividing first
    (left) and dividing last (right) give the same extended real; the similarity is exp(−½·max(y,0)) on the left and
    exp((−max(y,0))/2) on the right. -/
theorem class_law (y W : Fin 5 → EReal) (N S : EReal)
    (hreal : ∃ (w : Fin 5 → ℝ) (n s : ℝ), (∀ k, W k = (w k : EReal)) ∧ N = (n : EReal) ∧ S = (s : EReal)
      ∧ (s = 0 → (∀ k, w k = 0) ∧ n = 0)) :
    (∑ k, Ideal.exp (Ideal.ofBits .f32 0xBF000000#32 * max (y k) 0) * Ideal.div (W k) S)
        + Ideal.div N S
      = Ideal.div ((∑ k, Ideal.exp (Ideal.div (-(max (y k) 0)) (Ideal.ofBits .f32 0x40000000#32)) * W k)
        + N) S := by
  obtain ⟨w, n, s, hW, hN, hS, hzero⟩ := hreal
  choose r hr using fun k => exp_real (neg_half_max_ne_top (y k))
  simp only [lit_neg_half, lit_two, ← neg_half_mul, hr, hW, hN, hS]
  exact fold_divide r w n s hzero

end Cert.Cbc

end
-- ==== Proof.Bridge.lean ====
/-
  The bridge: the reference's result, entry by entry, is the kernel's result.  At row b and class q the reference is
  ( Σ_k s(b,k)·w(k,q) + N(q) ) / S(q) with s = exp((−d²)/2); the kernel is Σ_k s(b,k)·(w(k,q)/S(q)) + N(q)/S(q) with
  s = exp(−½·d²), over the same clamped squared distance d² and the same tables w, N, S.  The tables are real numbers
  (clipped reasonings), so the law of the imported arithmetic module applies to every row and class.
-/
import proofs.«105461_j34033320854004_2_alg».proof.Proof.KernelValue
import proofs.«105461_j34033320854004_2_alg».proof.Proof.RefRead
import proofs.«105461_j34033320854004_2_alg».proof.Proof.Law

noncomputable section

namespace Cert.Cbc

open Cert.ReferenceIdeal Cert.ReferenceIdeal.Read Idealize.ShloMosaic Idealize.ShloMosaic.ValueIdx

variable (x0 : (⟨S32768x1024, .f32⟩ : BufTy).Contents (Elt Ideal)) (x1 : (⟨S5x1024, .f32⟩ : BufTy).Contents (Elt Ideal))
  (x2 : (⟨S5x3x2, .f32⟩ : BufTy).Contents (Elt Ideal))

/-- The tables of class q are real numbers, the weights and the offset vanishing with the total. -/
theorem tables_of_class (q : Fin 3) :
    ∃ (w : Fin 5 → ℝ) (n s : ℝ), (∀ k, val_main_v30 (F := Ideal) x2 (ix2 k q) = (w k : EReal))
      ∧ val_main_v32 (F := Ideal) x2 (ix1 q) = (n : EReal) ∧ val_main_v37 (F := Ideal) x2 (ix1 q) = (s : EReal)
      ∧ (s = 0 → (∀ k, w k = 0) ∧ n = 0) := by
  obtain ⟨w, n, s, hw, hn, hs, hz⟩ := tables_real (fun k => x2 (ix3 k q (0 : Fin 2))) (fun k => x2 (ix3 k q (1 : Fin 2)))
  refine ⟨w, n, s, fun k => ?_, ?_, ?_, hz⟩
  · rw [Ref.weight_apply, Ref.neg_apply, Ref.clip0_apply, Ref.clip1_apply, lit_one]
    exact hw k
  · rw [Ref.offset_apply]
    simp only [Ref.neg_apply, Ref.clip0_apply, Ref.clip1_apply, lit_one]
    exact hn
  · rw [Ref.total_apply]
    simp only [Ref.neg_apply, Ref.clip0_apply, Ref.clip1_apply, lit_one]
    exact hs

/-- The reference's result is the kernel's result, as functions of the three argument arrays. -/
theorem ref_eq_result : val_main_v40 (F := Ideal) x0 x1 x2 = Kernel.result x0 x1 x2 := by
  funext i
  obtain ⟨b, q, rfl⟩ : ∃ (b : Fin 32768) (q : Fin 3), i = ix2 b q := ⟨i 0, i 1, eq_ix2 i⟩
  show _ = Kernel.entry x0 x1 x2 b q
  rw [Ref.out_apply]
  unfold Kernel.entry
  simp only [Ref.sim_apply, Ref.dist_apply, Ideal.ofBits_zero_f32]
  exact (class_law
    (fun k => ((∑ d : Fin 1024, x0 (ix2 b d) * x0 (ix2 b d)) + val_main_v4 (F := Ideal) x1 (ix1 k))
      - Ideal.ofBits .f32 0x40000000#32 * ∑ d : Fin 1024, x0 (ix2 b d) * val_main_v9 (F := Ideal) x1 (ix2 d k))
    (fun k => val_main_v30 (F := Ideal) x2 (ix2 k q)) (val_main_v32 (F := Ideal) x2 (ix1 q)) (val_main_v37 (F := Ideal) x2 (ix1 q))
    (tables_of_class x2 q)).symm

end Cert.Cbc

end
-- ==== Proof.lean ====
/-
  A classification-by-components head: for each of 32768 rows x_b (1024 features) and 5 components c_k, the similarity
  s(b,k) = exp(−d²(b,k)/2) of the clamped squared Euclidean distance d²(b,k) = max(‖x_b‖² + ‖c_k‖² − 2⟨x_b, c_k⟩, 0); then,
  with the reasonings clipped into [0, 1], p and n = (1 − p)·q the positive and negative reasonings of each of the 3
  classes, the class probabilities  ( Σ_k s(b,k)·(p − n)(q,k) + Σ_k n(q,k) ) / Σ_k (p + n)(q,k).

  The kernel streams x through a grid of 16 row blocks and computes  Σ_k s(b,k)·wp(k,q) + bp(q)  per block, its program
  having first folded the final division into the weights, wp = (p − n)ᵀ / Σ(p + n), and into the offset,
  bp = Σ n / Σ(p + n).  The reference divides last.  At the exact values the two agree on every input (Proof/Law.lean
  says why, including the classes whose total is zero); the kernel's array is read back in Proof/KernelValue.lean over
  Proof/Body.lean (the block's arithmetic) and Proof/Host.lean (the prepared tables), the reference's in Proof/RefRead.lean,
  and Proof/Bridge.lean joins them.  The three frames are the programs' runs with the results dropped; the idealization
  rewrote nothing, so the preservation claim is trivial.
-/
import proofs.«105461_j34033320854004_2_alg».proof.Defs
import proofs.«105461_j34033320854004_2_alg».proof.Proof.Gen.Kernel
import proofs.«105461_j34033320854004_2_alg».proof.Proof.Gen.Kernel.Skeleton
import proofs.«105461_j34033320854004_2_alg».proof.Proof.Gen.Kernel.Launch
import proofs.«105461_j34033320854004_2_alg».proof.Proof.Gen.Kernel.Points
import proofs.«105461_j34033320854004_2_alg».proof.Proof.Gen.Kernel.Frame
import proofs.«105461_j34033320854004_2_alg».proof.Proof.Gen.KernelIdeal
import proofs.«105461_j34033320854004_2_alg».proof.Proof.Gen.KernelIdeal.Skeleton
import proofs.«105461_j34033320854004_2_alg».proof.Proof.Gen.KernelIdeal.Launch
import proofs.«105461_j34033320854004_2_alg».proof.Proof.Gen.KernelIdeal.Points
import proofs.«105461_j34033320854004_2_alg».proof.Proof.Gen.KernelIdeal.Frame
import proofs.«105461_j34033320854004_2_alg».proof.Proof.Gen.ReferenceIdeal
import proofs.«105461_j34033320854004_2_alg».proof.Proof.Gen.Pre_finite_inputs
import proofs.«105461_j34033320854004_2_alg».proof.Proof.Gen.KernelIdeal.Value
import proofs.«105461_j34033320854004_2_alg».proof.Proof.Gen.ReferenceIdeal.Run
import proofs.«105461_j34033320854004_2_alg».proof.Proof.Gen.ReferenceIdeal.Read
import proofs.«105461_j34033320854004_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same [32768, 3] array of class probabilities:
    the kernel's run leaves the divide-first form, the reference's run the divide-last form, and the two are one function
    of the arguments. -/
theorem algebraic : Cert.algebraic_KernelIdeal_ReferenceIdeal := by
  intro m ρ m' ρ' _ hagree
  refine ⟨fun c => Cert.Cbc.Kernel.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Cbc.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2]
  exact Cert.Cbc.ref_eq_result _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
